-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S13x128x16x1024 : Shape := ⟨4, ![13, 128, 16, 1024]⟩
abbrev S128x16x1024 : Shape := ⟨3, ![128, 16, 1024]⟩
abbrev S_ : Shape := ⟨0, ![]⟩

class Facts : Prop where
  bcast_S_S13x128x16x1024 : S_.BroadcastsInDim S13x128x16x1024 (![] : Fin 0 → Fin S13x128x16x1024.rank)
  reducesTo_S13x128x16x1024_S_d0_1_2_3 : S13x128x16x1024.ReducesTo [0, 1, 2, 3] S_
  h_S_ : 0 < S_.numel
  bcast_S_S128x16x1024 : S_.BroadcastsInDim S128x16x1024 (![] : Fin 0 → Fin S128x16x1024.rank)
  reducesTo_S128x16x1024_S_d0_1_2 : S128x16x1024.ReducesTo [0, 1, 2] S_

variable [Facts]

def fn {F : FTy → Type} [FloatOps F] (main_arg0 : FVec F S13x128x16x1024 .f32) (main_arg1 : FVec F S128x16x1024 .f32) : IVec S_ 1 :=
  let main_v0 : FVec F S13x128x16x1024 .f32 := Host.absf main_arg0
  let main_cst : FVec F S_ .f32 := constant S_ .f32 0x7F800000#32
  let main_v1 : FVec F S13x128x16x1024 .f32 := broadcastInDim S13x128x16x1024 ![] bcast_S_S13x128x16x1024 main_cst
  let main_v2 : IVec S13x128x16x1024 1 := cmpf .olt main_v0 main_v1
  let main_c : IVec S_ 1 := constantI S_ 1 1#1
  let main_v3 : IVec S_ 1 := (fun x v => Host.reduce IntOp.andi x v reducesTo_S13x128x16x1024_S_d0_1_2_3 h_S_) main_v2 main_c
  let main_v4 : FVec F S128x16x1024 .f32 := Host.absf main_arg1
  let main_cst_0 : FVec F S_ .f32 := constant S_ .f32 0x7F800000#32
  let main_v5 : FVec F S128x16x1024 .f32 := broadcastInDim S128x16x1024 ![] bcast_S_S128x16x1024 main_cst_0
  let main_v6 : IVec S128x16x1024 1 := cmpf .olt main_v4 main_v5
  let main_c_1 : IVec S_ 1 := constantI S_ 1 1#1
  let main_v7 : IVec S_ 1 := (fun x v => Host.reduce IntOp.andi x v reducesTo_S128x16x1024_S_d0_1_2 h_S_) main_v6 main_c_1
  let main_v8 : IVec S_ 1 := andi main_v3 main_v7
  main_v8
-- ==== Kernel.lean ====
abbrev S13x128x16x1024 : Shape := ⟨4, ![13, 128, 16, 1024]⟩
abbrev S128x16x1024 : Shape := ⟨3, ![128, 16, 1024]⟩
abbrev S1x128x16x1024 : Shape := ⟨4, ![1, 128, 16, 1024]⟩
abbrev S256x16x1024 : Shape := ⟨3, ![256, 16, 1024]⟩
abbrev S128x128x16x1024 : Shape := ⟨4, ![128, 128, 16, 1024]⟩

abbrev nBuf : Space → Nat
  | .hbm => 6
  | .vmem => 3
  | .smem => 0
  | _ => 0

abbrev bufTy : (tb : Table) → Fin (tcTables nBuf tb) → BufTy
  | .hbm, ⟨0, _⟩ => ⟨S13x128x16x1024, .f32⟩
  | .hbm, ⟨1, _⟩ => ⟨S128x16x1024, .f32⟩
  | .hbm, ⟨2, _⟩ => ⟨S1x128x16x1024, .f32⟩
  | .hbm, ⟨3, _⟩ => ⟨S128x16x1024, .f32⟩
  | .hbm, ⟨4, _⟩ => ⟨S256x16x1024, .f32⟩
  | .hbm, ⟨5, _⟩ => ⟨S128x128x16x1024, .f32⟩
  | .local _ .vmem, ⟨0, _⟩ => ⟨S256x16x1024, .f32⟩
  | .local _ .vmem, ⟨1, _⟩ => ⟨S1x128x16x1024, .f32⟩
  | .local _ .vmem, ⟨2, _⟩ => ⟨S1x128x16x1024, .f32⟩
  | _, _ => ⟨S13x128x16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![128], ![false]⟩

def k0_off1 (i : grid0.Coords) : Fin 3 → Nat :=
  let arg0 : BitVec 32 := BitVec.ofNat 32 (i 0).val
  let c1_i32 : BitVec 32 := 1#32
  let v0 : BitVec 32 := Scalar.addi arg0 c1_i32
  let v1 : Index := Scalar.indexCast v0
  let c0 : Index := 0#32
  let c0_0 : Index := 0#32
  ![v1.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S256x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S13x128x16x1024_S1x128x16x1024_12_0_0_0 : S13x128x16x1024.Slices ![12, 0, 0, 0] S1x128x16x1024
  shapeCasts_S1x128x16x1024_S128x16x1024 : S1x128x16x1024.ShapeCasts S128x16x1024
  concatenates_S128x16x1024_S128x16x1024_S256x16x1024_d0 : Shape.Concatenates [S128x16x1024, S128x16x1024] S256x16x1024 0
  h_S128x16x1024 : 0 < S128x16x1024.numel
  shapeCasts_S128x16x1024_S128x16x1024 : S128x16x1024.ShapeCasts S128x16x1024
  inb_S1x128x16x1024_S1x128x16x1024_0_0_0_0 : ∀ a, (![0, 0, 0, 0] : Fin 4 → Nat) a + S1x128x16x1024.size a ≤ S1x128x16x1024.size a
  h_S1x128x16x1024 : 0 < S1x128x16x1024.numel
  shapeCasts_S128x16x1024_S1x128x16x1024 : S128x16x1024.ShapeCasts S1x128x16x1024
  hrank0 : 0 < grid0.rank
  k0_off1_inb : ∀ i : grid0.Coords, ∀ a, (k0_off1 i) a + S128x16x1024.size a ≤ S256x16x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x16x1024.size a ≤ S256x16x1024.size a
  hwx0_0 : ∀ i : grid0.Coords, EltTy.bits .f32 = 32 ∨ (Rect.block (s := S256x16x1024) S256x16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16x1024.size a ≤ S128x128x16x1024.size a
  hwx0_1 : ∀ i : grid0.Coords, EltTy.bits .f32 = 32 ∨ (Rect.block (s := S128x128x16x1024) S1x128x16x1024.size (cc0_transform_1 i) (hinb0_1 i)).WholeWords (EltTy.packing .f32)

variable [Facts₀]

abbrev win0_0 : Pipeline.Window sig grid0 :=
  Pipeline.Window.ofSpec (Memref.whole main_v2) S256x16x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x128x16x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S13x128x16x1024 : Shape := ⟨4, ![13, 128, 16, 1024]⟩
abbrev S128x16x1024 : Shape := ⟨3, ![128, 16, 1024]⟩
abbrev S1x128x16x1024 : Shape := ⟨4, ![1, 128, 16, 1024]⟩
abbrev S256x16x1024 : Shape := ⟨3, ![256, 16, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S16384 : Shape := ⟨1, ![16384]⟩
abbrev S16384x1 : Shape := ⟨2, ![16384, 1]⟩
abbrev S1 : Shape := ⟨1, ![1]⟩
abbrev S1x1 : Shape := ⟨2, ![1, 1]⟩
abbrev S16384x16x1024 : Shape := ⟨3, ![16384, 16, 1024]⟩
abbrev S128x128x16x1024 : Shape := ⟨4, ![128, 128, 16, 1024]⟩

abbrev nBuf : Space → Nat
  | .hbm => 45
  | .vmem => 0
  | .smem => 0
  | _ => 0

abbrev bufTy : (tb : Table) → Fin (tcTables nBuf tb) → BufTy
  | .hbm, ⟨0, _⟩ => ⟨S13x128x16x1024, .f32⟩
  | .hbm, ⟨1, _⟩ => ⟨S128x16x1024, .f32⟩
  | .hbm, ⟨2, _⟩ => ⟨S1x128x16x1024, .f32⟩
  | .hbm, ⟨3, _⟩ => ⟨S128x16x1024, .f32⟩
  | .hbm, ⟨4, _⟩ => ⟨S256x16x1024, .f32⟩
  | .hbm, ⟨5, _⟩ => ⟨S128, .i32⟩
  | .hbm, ⟨6, _⟩ => ⟨S128x1, .i32⟩
  | .hbm, ⟨7, _⟩ => ⟨S1x128, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S1, .i32⟩
  | .hbm, ⟨30, _⟩ => ⟨S_, .i32⟩
  | .hbm, ⟨31, _⟩ => ⟨S16384x1, .i32⟩
  | .hbm, ⟨32, _⟩ => ⟨S16384x1, .i1⟩
  | .hbm, ⟨33, _⟩ => ⟨S1x1, .i32⟩
  | .hbm, ⟨34, _⟩ => ⟨S16384x1, .i32⟩
  | .hbm, ⟨35, _⟩ => ⟨S16384x1, .i1⟩
  | .hbm, ⟨36, _⟩ => ⟨S16384x1, .i1⟩
  | .hbm, ⟨37, _⟩ => ⟨S_, .i1⟩
  | .hbm, ⟨38, _⟩ => ⟨S16384, .i1⟩
  | .hbm, ⟨39, _⟩ => ⟨S16384x16x1024, .f32⟩
  | .hbm, ⟨40, _⟩ => ⟨S16384x16x1024, .i1⟩
  | .hbm, ⟨41, _⟩ => ⟨S_, .f32⟩
  | .hbm, ⟨42, _⟩ => ⟨S16384x16x1024, .f32⟩
  | .hbm, ⟨43, _⟩ => ⟨S16384x16x1024, .f32⟩
  | .hbm, ⟨44, _⟩ => ⟨S128x128x16x1024, .f32⟩
  | _, _ => ⟨S13x128x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v16 : Ref sig .tc := ⟨.hbm, 43, rfl⟩
abbrev main_v17 : Ref sig .tc := ⟨.hbm, 44, rfl⟩

abbrev nD : Nat := 1
abbrev τ : Topo := Topo.v7x

variable {F : FTy → Type} [FloatOps F]

class Facts₀ : Prop where
  slices_S13x128x16x1024_S1x128x16x1024_12_0_0_0 : S13x128x16x1024.Slices ![12, 0, 0, 0] S1x128x16x1024
  shapeCasts_S1x128x16x1024_S128x16x1024 : S1x128x16x1024.ShapeCasts S128x16x1024
  concatenates_S128x16x1024_S128x16x1024_S256x16x1024_d0 : Shape.Concatenates [S128x16x1024, S128x16x1024] S256x16x1024 0
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  shapeCasts_S128x128_S16384 : S128x128.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x16x1024_0 : S16384.BroadcastsInDim S16384x16x1024 (![0] : Fin 1 → Fin S16384x16x1024.rank)
  bcast_S_S16384x16x1024 : S_.BroadcastsInDim S16384x16x1024 (![] : Fin 0 → Fin S16384x16x1024.rank)
  shapeCasts_S16384x16x1024_S128x128x16x1024 : S16384x16x1024.ShapeCasts S128x128x16x1024
  gather_S256x16x1024_S16384x1_S16384x16x1024_12_0_n_n_0_1_1161024_wf : GatherDims.WF S256x16x1024 S16384x1 S16384x16x1024 [1, 2] [0] [] [0] [] 1 ![1, 16, 1024]

variable [Facts₀]

def gather_S256x16x1024_S16384x1_S16384x16x1024_12_0_n_n_0_1_1161024 : GatherDims S256x16x1024 S16384x1 S16384x16x1024 where
  offsetDims := [1, 2]
  collapsedSliceDims := [0]
  operandBatchingDims := []
  startIndicesBatchingDims := []
  startIndexMap := [0]
  indexVectorDim := 1
  sliceSizes := ![1, 16, 1024]
  wf := gather_S256x16x1024_S16384x1_S16384x16x1024_12_0_n_n_0_1_1161024_wf

class Facts : Prop extends Facts₀ where

variable [Facts]
-- ==== Proof.Spec.lean ====
/-
  The result both programs compute, stated once over any element type.

  Both programs first build the same "query base": the last layer (index 12) of the neighbour memory, 128 rows of
  16 x 1024 values, followed by the 128 rows of the inputs: 256 rows in all. The result is the sliding window over
  that base: entry (i, j, b, h) of the [128, 128, 16, 1024] result is entry (i + j + 1, b, h) of the base. No
  arithmetic is done on the values, so nothing here depends on how a float is read.
-/
import Idealize.ShloMosaic.Lib.ValueIdx

noncomputable section

namespace Cert.Spec

open Idealize.ShloMosaic Idealize.ShloMosaic.ValueIdx

/-- The sliding window over a base of 256 rows: row `j` of window `i` is row `i + j + 1` of the base
    (`i, j < 128`, so the row is between 1 and 255). -/
def window {α : Type} (q : (⟨3, ![256, 16, 1024]⟩ : Shape).Idx → α) : (⟨4, ![128, 128, 16, 1024]⟩ : Shape).Idx → α :=
  fun i => q (ix3 (n0 := 256) (n1 := 16) (n2 := 1024)
    ⟨(i 0).val + (i 1).val + 1, by
      have h0 : (i 0).val < 128 := (i 0).isLt
      have h1 : (i 1).val < 128 := (i 1).isLt
      omega⟩ (i 2) (i 3))

/-- The window at an index given by its coordinates. -/
theorem window_apply {α : Type} (q : (⟨3, ![256, 16, 1024]⟩ : Shape).Idx → α) (i j : Fin 128) (b : Fin 16)
    (h : Fin 1024) (r : Fin 256) (hr : r.val = i.val + j.val + 1) :
    window q (ix4 i j b h) = q (ix3 r b h) := by
  unfold window
  refine congrArg q (funext fun a => ?_)
  match a with
  | ⟨0, _⟩ => exact Fin.ext hr.symm
  | ⟨1, _⟩ => rfl
  | ⟨2, _⟩ => rfl

/-- The query base as the host operations build it: the slice `[12:13]` of the memory along its first axis, viewed
    without that axis, concatenated along the rows with the inputs. The three shape conditions are arguments, so two
    programs that state them separately build the same term. -/
def base {α : Type}
    (hs : (⟨4, ![13, 128, 16, 1024]⟩ : Shape).Slices ![12, 0, 0, 0] ⟨4, ![1, 128, 16, 1024]⟩)
    (hc : (⟨4, ![1, 128, 16, 1024]⟩ : Shape).ShapeCasts ⟨3, ![128, 16, 1024]⟩)
    (hk : Shape.Concatenates [⟨3, ![128, 16, 1024]⟩, ⟨3, ![128, 16, 1024]⟩] ⟨3, ![256, 16, 1024]⟩ 0)
    (a0 : (⟨4, ![13, 128, 16, 1024]⟩ : Shape).Idx → α) (a1 : (⟨3, ![128, 16, 1024]⟩ : Shape).Idx → α) :
    (⟨3, ![256, 16, 1024]⟩ : Shape).Idx → α :=
  concatenate ⟨3, ![256, 16, 1024]⟩ 0
    [⟨⟨3, ![128, 16, 1024]⟩, shapeCast ⟨3, ![128, 16, 1024]⟩ (extractStridedSlice ⟨4, ![1, 128, 16, 1024]⟩ ![12, 0, 0, 0] a0 hs) hc⟩,
     ⟨⟨3, ![128, 16, 1024]⟩, a1⟩] hk

end Cert.Spec

end
-- ==== Proof.KernelWindow.lean ====
/-
  The kernel's result array is the sliding window over the query base the region finds.

  The grid has 128 points; point `t` stages the whole base (256 rows) and writes back block `t` of the result, a
  [1, 128, 16, 1024] block. The body loads the 128 rows of the base that start at row `t + 1` and stores them, so
  entry (0, j, b, h) of the block is entry (t + 1 + j, b, h) of the base: block `t` of the window. The 128 blocks
  tile the result along its first axis, so the result array ends as the window over the base.
-/
import proofs.«116490_j85718957293865_1_alg».proof.Proof.Gen.KernelIdeal.Value
import proofs.«116490_j85718957293865_1_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Window

open Cert.KernelIdeal Cert.KernelIdeal.Gen Cert.KernelIdeal.Value

variable {F : FTy → Type} [FloatOps F]
variable (m : (ℓ : Loc nD τ sig) → Buf (Elt F) ℓ) (ρ : Dev nD → PrngReg)

theorem zero_offsets : (![0, 0, 0, 0] : Fin 4 → Nat) = fun _ => 0 := funext fun a => by fin_cases a <;> rfl

/-- The stored value at an index of the block: the loaded rows at the index's last three coordinates (the two
    changes of shape only add the block's leading axis of extent one). -/
theorem stored_apply (v : Vec F S128x16x1024 .f32) (j : S1x128x16x1024.Idx) : k0_pay1 v j = v (fun a => j a.succ) := by
  unfold k0_pay1
  rw [shapeCast_self]
  exact shapeCast_addUnit_apply ![128, 16, 1024] v _ j

/-- What the body leaves in the output's staging buffer: its one store covers the buffer, and the stored value is
    computed from the 128 rows of the staged base read at the body's row offset. -/
theorem left_eq (c : Dev nD) (i : grid0.Coords) (a1 : Memref sig .tc .vmem S256x16x1024 .f32) (h1 : a1.IsWhole)
    (a2 : Memref sig .tc .vmem S1x128x16x1024 .f32) (h2 : a2.IsWhole) (x : Vec F S256x16x1024 .f32) :
    out0_A_1 c i a1 h1 a2 h2 x
      = k0_pay1 (View.ld x (Rect.unit (s := S256x16x1024) (k0_off1 i) S128x16x1024.size (k0_off1_inb i))) := by
  unfold out0_A_1
  rw [View.read_writes_eq_canon _ _ _ (cover0_A_1 c i a1 h1 a2 h2 x)]
  unfold kernelRun0_A
  dsimp only
  rw [View.canon_unit_zero zero_offsets]
  simp only [View.readAt_eq_ld, h1.read_unread]

/-- At point `t` the body reads from row `t + 1` on (the 32-bit sum does not wrap: `t < 128`), at column offsets
    zero; decided over the 128 points. -/
theorem row_offset : ∀ t : Fin cfg0.N, k0_off1 (grid0.coords t) (0 : Fin 3) = t.val + 1
    ∧ k0_off1 (grid0.coords t) (1 : Fin 3) = 0 ∧ k0_off1 (grid0.coords t) (2 : Fin 3) = 0 :=
  (by decide +kernel : ∀ t : Fin grid0.N, _)

/-- The base's window is always its block 0 (the whole array); the result's block at point `t` is block `t` along
    the first axis; decided over the 128 points. -/
theorem block_index : ∀ t : Fin cfg0.N, win0_0.index t (0 : Fin 3) = 0 ∧ win0_0.index t (1 : Fin 3) = 0
    ∧ win0_0.index t (2 : Fin 3) = 0
    ∧ win0_1.index t (0 : Fin 4) = t.val ∧ win0_1.index t (1 : Fin 4) = 0 ∧ win0_1.index t (2 : Fin 4) = 0
    ∧ win0_1.index t (3 : Fin 4) = 0 :=
  (by decide +kernel : ∀ t : Fin grid0.N, _)

/-- What point `t` writes back is block `t` of the window over the base as the region finds it. -/
theorem flushed_eq (c : Dev nD) (t : Fin cfg0.N) :
    (dats m 0 c).flushed 1 t
      = ((cfg0.win 1).blk t).view.read (Elt F) (Cert.Spec.window (V m c main_v2)) := by
  rw [flushed1_A, left_eq]
  obtain ⟨o0, o1, o2⟩ := row_offset t
  obtain ⟨b0, b1, b2, r0, r1, r2, r3⟩ := block_index t
  funext j
  show k0_pay1 (View.ld (iblk m c 0 t) (Rect.unit (s := S256x16x1024) (k0_off1 (grid0.coords t)) S128x16x1024.size
      (k0_off1_inb (grid0.coords t)))) j = Cert.Spec.window (V m c main_v2) (((cfg0.win 1).blk t).view.emb j)
  refine (stored_apply _ j).trans ?_
  show V m c main_v2 (((cfg0.win 0).blk t).view.emb ((Rect.unit (s := S256x16x1024) (k0_off1 (grid0.coords t))
      S128x16x1024.size (k0_off1_inb (grid0.coords t))).emb fun a => j a.succ))
    = Cert.Spec.window (V m c main_v2) (((cfg0.win 1).blk t).view.emb j)
  unfold Cert.Spec.window
  refine congrArg (V m c main_v2) (funext fun a => Fin.ext ?_)
  have hj0 : (j 0).val < 1 := (j 0).isLt
  match a with
  | ⟨0, _⟩ =>
    show win0_0.index t (0 : Fin 3) * 256 + 1 * (k0_off1 (grid0.coords t) (0 : Fin 3) + 1 * (j 1).val)
      = (win0_1.index t (0 : Fin 4) * 1 + 1 * (j 0).val) + (win0_1.index t (1 : Fin 4) * 128 + 1 * (j 1).val) + 1
    omega
  | ⟨1, _⟩ =>
    show win0_0.index t (1 : Fin 3) * 16 + 1 * (k0_off1 (grid0.coords t) (1 : Fin 3) + 1 * (j 2).val)
      = win0_1.index t (2 : Fin 4) * 16 + 1 * (j 2).val
    omega
  | ⟨2, _⟩ =>
    show win0_0.index t (2 : Fin 3) * 1024 + 1 * (k0_off1 (grid0.coords t) (2 : Fin 3) + 1 * (j 3).val)
      = win0_1.index t (3 : Fin 4) * 1024 + 1 * (j 3).val
    omega

/-- An index of the result is in point `t`'s block iff each coordinate is in the block's range on its axis. -/
theorem mem_block (t : Fin cfg0.N) (i : S128x128x16x1024.Idx) :
    i ∈ ((cfg0.win 1).blk t).view.set ↔ ∀ a : Fin 4, win0_1.index t a * S1x128x16x1024.size a ≤ (i a).val
      ∧ (i a).val < win0_1.index t a * S1x128x16x1024.size a + S1x128x16x1024.size a := by
  show i ∈ ((View.whole main_v3).slice (win0_1.rect t)).set ↔ _
  rw [View.set_slice_whole, Rect.mem_set_unit]
  exact Iff.rfl

/-- Every index of the result is in the block of the point its first coordinate names. -/
theorem covered (i : S128x128x16x1024.Idx) :
    ∃ t : Fin cfg0.N, (cfg0.win 1).flush t = true ∧ i ∈ ((cfg0.win 1).blk t).view.set := by
  have hN : cfg0.N = 128 := N_0
  have h0 : (i 0).val < 128 := (i 0).isLt
  have h1 : (i 1).val < 128 := (i 1).isLt
  have h2 : (i 2).val < 16 := (i 2).isLt
  have h3 : (i 3).val < 1024 := (i 3).isLt
  refine ⟨⟨(i 0).val, by omega⟩, flush0_1 _, ?_⟩
  rw [mem_block]
  obtain ⟨b0, b1, b2, r0, r1, r2, r3⟩ := block_index ⟨(i 0).val, by omega⟩
  intro a
  match a with
  | ⟨0, _⟩ =>
    show win0_1.index _ (0 : Fin 4) * 1 ≤ (i 0).val ∧ (i 0).val < win0_1.index _ (0 : Fin 4) * 1 + 1
    rw [r0]; show (i 0).val * 1 ≤ (i 0).val ∧ (i 0).val < (i 0).val * 1 + 1; omega
  | ⟨1, _⟩ =>
    show win0_1.index _ (1 : Fin 4) * 128 ≤ (i 1).val ∧ (i 1).val < win0_1.index _ (1 : Fin 4) * 128 + 128
    rw [r1]; omega
  | ⟨2, _⟩ =>
    show win0_1.index _ (2 : Fin 4) * 16 ≤ (i 2).val ∧ (i 2).val < win0_1.index _ (2 : Fin 4) * 16 + 16
    rw [r2]; omega
  | ⟨3, _⟩ =>
    show win0_1.index _ (3 : Fin 4) * 1024 ≤ (i 3).val ∧ (i 3).val < win0_1.index _ (3 : Fin 4) * 1024 + 1024
    rw [r3]; omega

/-- The result array after the run is the window over the base the region finds. -/
theorem final (c : Dev nD) : (dats m 0 c).arrAt 1 cfg0.N = Cert.Spec.window (V m c main_v2) :=
  (dats m 0 c).arrAt_eq_of_cover 1 (Cert.Spec.window (V m c main_v2)) (fun t _ => flushed_eq m c t) covered

/-- The base the region finds is the host operations' term of the argument arrays. -/
theorem base_eq (c : Dev nD) :
    (V m c main_v2 : S256x16x1024.Idx → Elt F .f32)
      = Cert.Spec.base Facts₀.slices_S13x128x16x1024_S1x128x16x1024_12_0_0_0 Facts₀.shapeCasts_S1x128x16x1024_S128x16x1024
          Facts₀.concatenates_S128x16x1024_S128x16x1024_S256x16x1024_d0
          (m ((c : Thread nD τ).loc main_arg0)) (m ((c : Thread nD τ).loc main_arg1)) := by
  dsimp only [Gen.V, Gen.hostOps0]
  after_results
  rfl

/-- The kernel's run: the result array ends as the window over the base built from the arguments, which end
    unchanged. -/
theorem run : θ_run defs (onTc (τ := τ) (main (F := F))) ⟨m, fun _ => 0, ρ⟩ fun r => ∀ c : Dev nD,
      r.2.mem ((c : Thread nD τ).loc main_v3)
        = Cert.Spec.window (Cert.Spec.base Facts₀.slices_S13x128x16x1024_S1x128x16x1024_12_0_0_0
            Facts₀.shapeCasts_S1x128x16x1024_S128x16x1024 Facts₀.concatenates_S128x16x1024_S128x16x1024_S256x16x1024_d0
            (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨by rw [(h c).1, final, base_eq], (h c).2⟩) (run_blocks m ρ)

end Cert.KernelIdeal.Window

end
-- ==== Proof.LibTypedRef.lean ====
/-
  A typed reference to a buffer (the handle an outlined function's operations use) moves contents between the value's
  type and the buffer's type along the equation of the two. Moving contents to the buffer's type and back gives them
  back unchanged, whatever the reference.
-/
import Idealize.ShloMosaic.Lib.StableHlo

namespace Cert.LibTypedRef

open Idealize.ShloMosaic Idealize.ShloMosaic.StableHlo

/-- Contents moved to a typed reference's buffer type and back are unchanged. -/
theorem ofBuf_toBuf {sig : RefSig} {T : BufTy} {Val : EltTy → Type} (x : TRef sig T) (v : T.Contents Val) :
    x.ofBuf (x.toBuf v) = v := by
  obtain ⟨ref, ty_eq, h1, h2⟩ := x
  subst ty_eq
  rfl

end Cert.LibTypedRef
-- ==== Proof.RefRun.lean ====
/-
  The reference program's run, read back.

  The reference is a straight line of 43 host operations once the two private functions it calls (`_take` and, inside
  it, `_where`) are put back at their calls. It falls into four stretches: the three operations (the same as the kernel's
  program's) that build the query base; the sixteen that build the matrix of gather indices `i + j + 1 + 128 - 128` from
  an iota and flatten it to 16384 entries; `_take`'s twenty-three — negative indices normalised (256 added where the
  index is negative), the in-range mask (`0 <= index <= 255`, reduced over an axis of extent one), the gather of whole
  [16, 1024] slabs of the base, the select between the gathered slabs and a fill value under the mask —; and the final
  change of shape to [128, 128, 16, 1024]. Each stretch is read by itself, from any contents, and the four are
  composed. Every weakly fair execution ends with the result buffer at that composed function of the arguments, the
  arguments unchanged.
-/
import proofs.«116490_j85718957293865_1_alg».proof.Proof.Gen.ReferenceIdeal
import proofs.«116490_j85718957293865_1_alg».proof.Proof.Spec
import proofs.«116490_j85718957293865_1_alg».proof.Proof.LibTypedRef
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The three operations that build the query base. -/
abbrev opsBase : List (HloOp τ sig (Elt F)) :=
  [
    unary main_arg0 main_v0 ((extractStridedSlice S1x128x16x1024 ![12, 0, 0, 0] · slices_S13x128x16x1024_S1x128x16x1024_12_0_0_0) : (⟨S13x128x16x1024, .f32⟩ : BufTy).Contents (Elt F) → (⟨S1x128x16x1024, .f32⟩ : BufTy).Contents (Elt F)),
    reshape main_v0 main_v1 rfl shapeCasts_S1x128x16x1024_S128x16x1024,
    binary main_v1 main_arg1 main_v2 ((fun a b => concatenate S256x16x1024 0 [⟨S128x16x1024, a⟩, ⟨S128x16x1024, b⟩] concatenates_S128x16x1024_S128x16x1024_S256x16x1024_d0) : (⟨S128x16x1024, .f32⟩ : BufTy).Contents (Elt F) → (⟨S128x16x1024, .f32⟩ : BufTy).Contents (Elt F) → (⟨S256x16x1024, .f32⟩ : BufTy).Contents (Elt F)) ]

/-- The sixteen that build the flat vector of gather indices. -/
abbrev opsIdx : List (HloOp τ sig (Elt F)) :=
  [
    nullary main_v3 (iotaInDim S128 32 0),
    unary main_v3 main_v4 (broadcastInDim S128x1 ![0] bcast_S128_S128x1_0 : (⟨S128, .i32⟩ : BufTy).Contents (Elt F) → (⟨S128x1, .i32⟩ : BufTy).Contents (Elt F)),
    unary main_v3 main_v5 (broadcastInDim S1x128 ![1] bcast_S128_S1x128_1 : (⟨S128, .i32⟩ : BufTy).Contents (Elt F) → (⟨S1x128, .i32⟩ : BufTy).Contents (Elt F)),
    unary main_v4 main_v6 (broadcastInDim S128x128 ![0, 1] bcast_S128x1_S128x128_0_1 : (⟨S128x1, .i32⟩ : BufTy).Contents (Elt F) → (⟨S128x128, .i32⟩ : BufTy).Contents (Elt F)),
    unary main_v5 main_v7 (broadcastInDim S128x128 ![0, 1] bcast_S1x128_S128x128_0_1 : (⟨S1x128, .i32⟩ : BufTy).Contents (Elt F) → (⟨S128x128, .i32⟩ : BufTy).Contents (Elt F)),
    binary main_v6 main_v7 main_v8 (addi : (⟨S128x128, .i32⟩ : BufTy).Contents (Elt F) → (⟨S128x128, .i32⟩ : BufTy).Contents (Elt F) → (⟨S128x128, .i32⟩ : BufTy).Contents (Elt F)),
    nullary main_c (constantI S_ 32 1#32),
    unary main_c main_v9 (broadcastInDim S128x128 ![] bcast_S_S128x128 : (⟨S_, .i32⟩ : BufTy).Contents (Elt F) → (⟨S128x128, .i32⟩ : BufTy).Contents (Elt F)),
    binary main_v8 main_v9 main_v10 (addi : (⟨S128x128, .i32⟩ : BufTy).Contents (Elt F) → (⟨S128x128, .i32⟩ : BufTy).Contents (Elt F) → (⟨S128x128, .i32⟩ : BufTy).Contents (Elt F)),
    nullary main_c_0 (constantI S_ 32 128#32),
    unary main_c_0 main_v11 (broadcastInDim S128x128 ![] bcast_S_S128x128 : (⟨S_, .i32⟩ : BufTy).Contents (Elt F) → (⟨S128x128, .i32⟩ : BufTy).Contents (Elt F)),
    binary main_v10 main_v11 main_v12 (addi : (⟨S128x128, .i32⟩ : BufTy).Contents (Elt F) → (⟨S128x128, .i32⟩ : BufTy).Contents (Elt F) → (⟨S128x128, .i32⟩ : BufTy).Contents (Elt F)),
    nullary main_c_1 (constantI S_ 32 128#32),
    unary main_c_1 main_v13 (broadcastInDim S128x128 ![] bcast_S_S128x128 : (⟨S_, .i32⟩ : BufTy).Contents (Elt F) → (⟨S128x128, .i32⟩ : BufTy).Contents (Elt F)),
    binary main_v12 main_v13 main_v14 (subi : (⟨S128x128, .i32⟩ : BufTy).Contents (Elt F) → (⟨S128x128, .i32⟩ : BufTy).Contents (Elt F) → (⟨S128x128, .i32⟩ : BufTy).Contents (Elt F)),
    reshape main_v14 main_v15 rfl shapeCasts_S128x128_S16384 ]

/-- `_take`'s twenty-three (with `_where`'s one), over the call's own buffers. -/
abbrev opsTake : List (HloOp τ sig (Elt F)) :=
  [
    TRef.nullary main_call0.c (constantI S_ 32 0#32),
    TRef.unary main_call0.c main_call0.v0 (broadcastInDim S16384 ![] bcast_S_S16384),
    TRef.binary (.of main_v15) main_call0.v0 main_call0.v1 (cmpi .slt),
    TRef.nullary main_call0.c_0 (constantI S_ 32 256#32),
    TRef.unary main_call0.c_0 main_call0.v2 (broadcastInDim S16384 ![] bcast_S_S16384),
    TRef.binary (.of main_v15) main_call0.v2 main_call0.v3 addi,
    TRef.ternary main_call0.v1 main_call0.v3 (.of main_v15) main_call0.call0.v0 select,
    TRef.unary main_call0.call0.v0 main_call0.v5 (broadcastInDim S16384x1 ![0] bcast_S16384_S16384x1_0),
    TRef.nullary main_call0.c_1 (constantI S1 32 255#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_v2) main_call0.v5 main_call0.v13 (fun x i => Host.gather gather_S256x16x1024_S16384x1_S16384x16x1024_12_0_n_n_0_1_1161024 x i),
    TRef.unary main_call0.v12 main_call0.v14 (broadcastInDim S16384x16x1024 ![0] bcast_S16384_S16384x16x1024_0),
    TRef.nullary main_call0.cst (constant S_ .f32 0x7FC00000#32),
    TRef.unary main_call0.cst main_call0.v15 (broadcastInDim S16384x16x1024 ![] bcast_S_S16384x16x1024),
    TRef.ternary main_call0.v14 main_call0.v13 main_call0.v15 main_call0.v16 select ]

/-- The final change of shape. -/
abbrev opsOut : List (HloOp τ sig (Elt F)) :=
  [
    reshape main_v16 main_v17 rfl shapeCasts_S16384x16x1024_S128x128x16x1024 ]

/-- @main's operations in order, the two calls unfolded into the calls' own buffers. -/
abbrev ops : List (HloOp τ sig (Elt F)) :=
  [
    unary main_arg0 main_v0 ((extractStridedSlice S1x128x16x1024 ![12, 0, 0, 0] · slices_S13x128x16x1024_S1x128x16x1024_12_0_0_0) : (⟨S13x128x16x1024, .f32⟩ : BufTy).Contents (Elt F) → (⟨S1x128x16x1024, .f32⟩ : BufTy).Contents (Elt F)),
    reshape main_v0 main_v1 rfl shapeCasts_S1x128x16x1024_S128x16x1024,
    binary main_v1 main_arg1 main_v2 ((fun a b => concatenate S256x16x1024 0 [⟨S128x16x1024, a⟩, ⟨S128x16x1024, b⟩] concatenates_S128x16x1024_S128x16x1024_S256x16x1024_d0) : (⟨S128x16x1024, .f32⟩ : BufTy).Contents (Elt F) → (⟨S128x16x1024, .f32⟩ : BufTy).Contents (Elt F) → (⟨S256x16x1024, .f32⟩ : BufTy).Contents (Elt F)),
    nullary main_v3 (iotaInDim S128 32 0),
    unary main_v3 main_v4 (broadcastInDim S128x1 ![0] bcast_S128_S128x1_0 : (⟨S128, .i32⟩ : BufTy).Contents (Elt F) → (⟨S128x1, .i32⟩ : BufTy).Contents (Elt F)),
    unary main_v3 main_v5 (broadcastInDim S1x128 ![1] bcast_S128_S1x128_1 : (⟨S128, .i32⟩ : BufTy).Contents (Elt F) → (⟨S1x128, .i32⟩ : BufTy).Contents (Elt F)),
    unary main_v4 main_v6 (broadcastInDim S128x128 ![0, 1] bcast_S128x1_S128x128_0_1 : (⟨S128x1, .i32⟩ : BufTy).Contents (Elt F) → (⟨S128x128, .i32⟩ : BufTy).Contents (Elt F)),
    unary main_v5 main_v7 (broadcastInDim S128x128 ![0, 1] bcast_S1x128_S128x128_0_1 : (⟨S1x128, .i32⟩ : BufTy).Contents (Elt F) → (⟨S128x128, .i32⟩ : BufTy).Contents (Elt F)),
    binary main_v6 main_v7 main_v8 (addi : (⟨S128x128, .i32⟩ : BufTy).Contents (Elt F) → (⟨S128x128, .i32⟩ : BufTy).Contents (Elt F) → (⟨S128x128, .i32⟩ : BufTy).Contents (Elt F)),
    nullary main_c (constantI S_ 32 1#32),
    unary main_c main_v9 (broadcastInDim S128x128 ![] bcast_S_S128x128 : (⟨S_, .i32⟩ : BufTy).Contents (Elt F) → (⟨S128x128, .i32⟩ : BufTy).Contents (Elt F)),
    binary main_v8 main_v9 main_v10 (addi : (⟨S128x128, .i32⟩ : BufTy).Contents (Elt F) → (⟨S128x128, .i32⟩ : BufTy).Contents (Elt F) → (⟨S128x128, .i32⟩ : BufTy).Contents (Elt F)),
    nullary main_c_0 (constantI S_ 32 128#32),
    unary main_c_0 main_v11 (broadcastInDim S128x128 ![] bcast_S_S128x128 : (⟨S_, .i32⟩ : BufTy).Contents (Elt F) → (⟨S128x128, .i32⟩ : BufTy).Contents (Elt F)),
    binary main_v10 main_v11 main_v12 (addi : (⟨S128x128, .i32⟩ : BufTy).Contents (Elt F) → (⟨S128x128, .i32⟩ : BufTy).Contents (Elt F) → (⟨S128x128, .i32⟩ : BufTy).Contents (Elt F)),
    nullary main_c_1 (constantI S_ 32 128#32),
    unary main_c_1 main_v13 (broadcastInDim S128x128 ![] bcast_S_S128x128 : (⟨S_, .i32⟩ : BufTy).Contents (Elt F) → (⟨S128x128, .i32⟩ : BufTy).Contents (Elt F)),
    binary main_v12 main_v13 main_v14 (subi : (⟨S128x128, .i32⟩ : BufTy).Contents (Elt F) → (⟨S128x128, .i32⟩ : BufTy).Contents (Elt F) → (⟨S128x128, .i32⟩ : BufTy).Contents (Elt F)),
    reshape main_v14 main_v15 rfl shapeCasts_S128x128_S16384,
    TRef.nullary main_call0.c (constantI S_ 32 0#32),
    TRef.unary main_call0.c main_call0.v0 (broadcastInDim S16384 ![] bcast_S_S16384),
    TRef.binary (.of main_v15) main_call0.v0 main_call0.v1 (cmpi .slt),
    TRef.nullary main_call0.c_0 (constantI S_ 32 256#32),
    TRef.unary main_call0.c_0 main_call0.v2 (broadcastInDim S16384 ![] bcast_S_S16384),
    TRef.binary (.of main_v15) main_call0.v2 main_call0.v3 addi,
    TRef.ternary main_call0.v1 main_call0.v3 (.of main_v15) main_call0.call0.v0 select,
    TRef.unary main_call0.call0.v0 main_call0.v5 (broadcastInDim S16384x1 ![0] bcast_S16384_S16384x1_0),
    TRef.nullary main_call0.c_1 (constantI S1 32 255#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_v2) main_call0.v5 main_call0.v13 (fun x i => Host.gather gather_S256x16x1024_S16384x1_S16384x16x1024_12_0_n_n_0_1_1161024 x i),
    TRef.unary main_call0.v12 main_call0.v14 (broadcastInDim S16384x16x1024 ![0] bcast_S16384_S16384x16x1024_0),
    TRef.nullary main_call0.cst (constant S_ .f32 0x7FC00000#32),
    TRef.unary main_call0.cst main_call0.v15 (broadcastInDim S16384x16x1024 ![] bcast_S_S16384x16x1024),
    TRef.ternary main_call0.v14 main_call0.v13 main_call0.v15 main_call0.v16 select,
    reshape main_v16 main_v17 rfl shapeCasts_S16384x16x1024_S128x128x16x1024 ]

/-- The line is its four stretches one after the other. -/
theorem ops_eq : (ops : List (HloOp τ sig (Elt F))) = opsBase ++ (opsIdx ++ (opsTake ++ opsOut)) := rfl

set_option maxRecDepth 4096 in
/-- @main is that straight line: the functions' definitions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., binary_bufs_sub .., nullary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub ..⟩

/-- Two lines one after the other: the second read from the contents the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The stages of the index computation and of the gather, as functions -/

/-- The matrix of gather indices: entry (i, j) is the 32-bit word `((i + j) + 1 + 128) - 128`. -/
def idxMat : IVec S128x128 32 :=
  subi (addi (addi (addi
      (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0))))
      (broadcastInDim S128x128 ![] bcast_S_S128x128 (constantI S_ 32 1#32)))
      (broadcastInDim S128x128 ![] bcast_S_S128x128 (constantI S_ 32 128#32)))
      (broadcastInDim S128x128 ![] bcast_S_S128x128 (constantI S_ 32 128#32))

/-- The same indices as one vector of 16384 entries, row by row. -/
def idxFlat : IVec S16384 32 := shapeCast S16384 idxMat shapeCasts_S128x128_S16384

/-- Negative indices count from the end: 256 is added to them. -/
def idxNorm (ix : IVec S16384 32) : IVec S16384 32 :=
  select (cmpi .slt ix (broadcastInDim S16384 ![] bcast_S_S16384 (constantI S_ 32 0#32)))
    (addi ix (broadcastInDim S16384 ![] bcast_S_S16384 (constantI S_ 32 256#32))) ix

/-- The indices as a column, the form the gather takes them in. -/
def idxCol (ix : IVec S16384 32) : IVec S16384x1 32 := broadcastInDim S16384x1 ![0] bcast_S16384_S16384x1_0 (idxNorm ix)

/-- Which entries name a row of the base: `0 <= index` and `index <= 255`, reduced by `and` over the column's
    axis of extent one. -/
def inRange (ix : IVec S16384 32) : IVec S16384 1 :=
  Host.reduce IntOp.andi
    (andi (cmpi .sge (idxCol ix) (broadcastInDim S16384x1 ![] bcast_S_S16384x1 (constantI S_ 32 0#32)))
      (cmpi .sle (idxCol ix) (broadcastInDim S16384x1 ![0, 1] bcast_S1x1_S16384x1_0_1
        (broadcastInDim S1x1 ![1] bcast_S1_S1x1_1 (constantI S1 32 255#32)))))
    (constantI S_ 1 1#1) reducesTo_S16384x1_S16384_d1 h_S_

/-- The slabs taken from a base `q` at indices `ix`: the gathered slab where the index is in range, a fill value
    elsewhere. -/
def taken (q : S256x16x1024.Idx → Elt F .f32) (ix : IVec S16384 32) : S16384x16x1024.Idx → Elt F .f32 :=
  select (broadcastInDim S16384x16x1024 ![0] bcast_S16384_S16384x16x1024_0 (inRange ix))
    (Host.gather gather_S256x16x1024_S16384x1_S16384x16x1024_12_0_n_n_0_1_1161024 q (idxCol ix))
    (broadcastInDim S16384x16x1024 ![] bcast_S_S16384x16x1024 (constant S_ .f32 0x7FC00000#32))

/-- The reference's result from a base `q`: the slabs taken at the flat indices, 128 by 128. -/
def result (q : S256x16x1024.Idx → Elt F .f32) : S128x128x16x1024.Idx → Elt F .f32 :=
  shapeCast S128x128x16x1024 (taken q idxFlat) shapeCasts_S16384x16x1024_S128x128x16x1024

/-! ## Each stretch from any contents -/

/-- The first stretch leaves the base of the two arguments in its buffer. -/
theorem base_at (V : Valuation τ sig (Elt F)) :
    (after opsBase V (main_v2 : DevRef τ sig) : S256x16x1024.Idx → Elt F .f32)
      = Cert.Spec.base slices_S13x128x16x1024_S1x128x16x1024_12_0_0_0 shapeCasts_S1x128x16x1024_S128x16x1024
          concatenates_S128x16x1024_S128x16x1024_S256x16x1024_d0 (V (main_arg0 : DevRef τ sig)) (V (main_arg1 : DevRef τ sig)) := by
  after_results
  rfl

/-- The second stretch leaves the flat indices in its buffer, whatever it started from. -/
theorem idx_at (V : Valuation τ sig (Elt F)) :
    (after opsIdx V (main_v15 : DevRef τ sig) : IVec S16384 32) = idxFlat := by
  after_results
  rfl

/-- The second stretch does not write the base's buffer. -/
theorem idx_keeps (V : Valuation τ sig (Elt F)) :
    after opsIdx V (main_v2 : DevRef τ sig) = V (main_v2 : DevRef τ sig) :=
  after_of_forall_not_mem (b := Proc.devRef .tc main_v2) _ _ (List.forall_iff_forall_mem.mp (by
    simp only [List.Forall, nullary_writes, unary_writes, binary_writes, reshape_writes, Finset.mem_singleton]
    repeat' apply And.intro
    all_goals exact devRef_ne_of_ne (by decide)))

attribute [local irreducible] Host.reduce Host.gather in
/-- The third stretch leaves in its result buffer the slabs taken from what the base's buffer holds at what the
    indices' buffer holds. -/
theorem take_at (V : Valuation τ sig (Elt F)) :
    (after opsTake V (main_v16 : DevRef τ sig) : S16384x16x1024.Idx → Elt F .f32)
      = taken (V (main_v2 : DevRef τ sig)) (V (main_v15 : DevRef τ sig)) := by
  after_results_simp
  simp only [Cert.LibTypedRef.ofBuf_toBuf]
  rfl

/-- The last operation reshapes what the taken slabs' buffer holds. -/
theorem out_at (V : Valuation τ sig (Elt F)) :
    (after opsOut V (main_v17 : DevRef τ sig) : S128x128x16x1024.Idx → Elt F .f32)
      = shapeCast S128x128x16x1024 (V (main_v16 : DevRef τ sig)) shapeCasts_S16384x16x1024_S128x128x16x1024 := by
  after_results
  rfl

/-- The whole line at the result buffer is `result` of the base built from the arguments. -/
theorem out_eq (V : Valuation τ sig (Elt F)) :
    (after ops V (main_v17 : DevRef τ sig) : S128x128x16x1024.Idx → Elt F .f32)
      = result (Cert.Spec.base slices_S13x128x16x1024_S1x128x16x1024_12_0_0_0 shapeCasts_S1x128x16x1024_S128x16x1024
          concatenates_S128x16x1024_S128x16x1024_S256x16x1024_d0 (V (main_arg0 : DevRef τ sig)) (V (main_arg1 : DevRef τ sig))) := by
  rw [ops_eq, after_append, after_append, after_append, out_at, take_at, idx_at, idx_keeps, base_at]
  rfl

/-- No operation writes an argument's buffer. -/
theorem arg0_eq (V : Valuation τ sig (Elt F)) : after ops V (main_arg0 : DevRef τ sig) = V (main_arg0 : DevRef τ sig) :=
  after_of_forall_not_mem (b := Proc.devRef .tc main_arg0) _ _ (List.forall_iff_forall_mem.mp (by
    simp only [List.Forall, nullary_writes, unary_writes, binary_writes, ternary_writes, reshape_writes, Finset.mem_singleton]
    repeat' apply And.intro
    all_goals exact devRef_ne_of_ne (by decide)))

theorem arg1_eq (V : Valuation τ sig (Elt F)) : after ops V (main_arg1 : DevRef τ sig) = V (main_arg1 : DevRef τ sig) :=
  after_of_forall_not_mem (b := Proc.devRef .tc main_arg1) _ _ (List.forall_iff_forall_mem.mp (by
    simp only [List.Forall, nullary_writes, unary_writes, binary_writes, ternary_writes, reshape_writes, Finset.mem_singleton]
    repeat' apply And.intro
    all_goals exact devRef_ne_of_ne (by decide)))

/-- On every device, from any memory with zero counters: every weakly fair execution of @main terminates with the
    result at `result` of the base built from the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
        = result (Cert.Spec.base slices_S13x128x16x1024_S1x128x16x1024_12_0_0_0 shapeCasts_S1x128x16x1024_S128x16x1024
            concatenates_S128x16x1024_S128x16x1024_S256x16x1024_d0
            (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v17).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.HostRun

end
-- ==== Proof.LibGatherSlabs.lean ====
/-
  A `stablehlo.gather` that takes whole slabs of a rank-3 table `[N, D1, D2]` at a column `[E, 1]` of start indices
  — what `jnp.take(table, idx, axis=0)` lowers to for a flat index array and a table with two trailing axes:
  offset_dims `[1, 2]`, collapsed_slice_dims `[0]`, start_index_map `[0]`, index_vector_dim `1`, slice_sizes
  `[1, D1, D2]`. Result entry `(e, d1, d2)` is entry `(d1, d2)` of the slab named by start index `e`, read as a signed
  integer and clamped into `[0, N − 1]`. General over the extents, the index width and the element type.
-/
import Idealize.ShloMosaic.Lib.ValueIdx

noncomputable section

namespace Cert.LibGatherSlabs

open Idealize.ShloMosaic Idealize.ShloMosaic.ValueIdx

variable {α : Type}

/-- Those dimension numbers for a table `[N, D1, D2]`, start indices `[E, 1]` and result `[E, D1, D2]`; their
    conditions `wf` are decided on a program's literal shapes. -/
abbrev slabDims (N D1 D2 E : Nat)
    (wf : GatherDims.WF ⟨3, ![N, D1, D2]⟩ ⟨2, ![E, 1]⟩ ⟨3, ![E, D1, D2]⟩ [1, 2] [0] [] [0] [] 1 ![1, D1, D2]) :
    GatherDims ⟨3, ![N, D1, D2]⟩ ⟨2, ![E, 1]⟩ ⟨3, ![E, D1, D2]⟩ where
  offsetDims := [1, 2]
  collapsedSliceDims := [0]
  operandBatchingDims := []
  startIndicesBatchingDims := []
  startIndexMap := [0]
  indexVectorDim := 1
  sliceSizes := ![1, D1, D2]
  wf := wf

/-- The slab a start index names: the index word read signed, clamped into `[0, N − 1]`. -/
def slabOf {w : Nat} (N : Nat) (hN : 0 < N) (b : BitVec w) : Fin N := ⟨min b.toInt.toNat (N - 1), by omega⟩

/-- An axis of a rank-3 shape is its first, its second or its third. -/
private theorem axis_cases (a : Fin 3) : a = 0 ∨ a = 1 ∨ a = 2 := by fin_cases a <;> simp

/-- THE GATHER READ AT `(e, d1, d2)`: entry `(d1, d2)` of the slab the start index `idx[e, 0]` names. -/
theorem gather_slabs_apply {N D1 D2 E w : Nat} (hN : 0 < N)
    (wf : GatherDims.WF ⟨3, ![N, D1, D2]⟩ ⟨2, ![E, 1]⟩ ⟨3, ![E, D1, D2]⟩ [1, 2] [0] [] [0] [] 1 ![1, D1, D2])
    (x : (⟨3, ![N, D1, D2]⟩ : Shape).Idx → α) (idx : IVec ⟨2, ![E, 1]⟩ w) (e : Fin E) (d1 : Fin D1) (d2 : Fin D2) :
    Host.gather (slabDims N D1 D2 E wf) x idx (ix3 e d1 d2)
      = x (ix3 (slabOf N hN (idx (ix2 e (0 : Fin 1)))) d1 d2) := by
  unfold Host.gather
  congr 1
  funext a
  refine Fin.ext ?_
  show (slabDims N D1 D2 E wf).start (ix3 e d1 d2) idx a + (slabDims N D1 D2 E wf).batchCoord (ix3 e d1 d2) a
      + (slabDims N D1 D2 E wf).offCoord (ix3 e d1 d2) a = _
  rw [GatherDims.batchCoord_eq_zero _ _ _ List.not_mem_nil]
  rcases axis_cases a with rfl | rfl | rfl
  · -- the collapsed axis: the clamped start index, no offset
    rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N D1 D2 E wf).startIndexMap from List.mem_singleton.mpr rfl)]
    have hsi : (slabDims N D1 D2 E wf).siIdx (ix3 e d1 d2) ⟨List.idxOf (0 : Fin 3) (slabDims N D1 D2 E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · -- the first kept axis: start zero, the offset is the result's second coordinate
    unfold GatherDims.start
    rw [dif_neg (show (1 : Fin 3) ∉ (slabDims N D1 D2 E wf).startIndexMap from
      fun h => absurd (congrArg Fin.val (List.mem_singleton.mp h)) Nat.one_ne_zero)]
    simp only [Nat.zero_add]
    have hk : (1 : Fin 3) ∈ (slabDims N D1 D2 E wf).sKept :=
      ((slabDims N D1 D2 E wf).mem_sKept 1).mpr
        ⟨fun h => absurd (congrArg Fin.val (List.mem_singleton.mp h)) Nat.one_ne_zero, List.not_mem_nil⟩
    unfold GatherDims.offCoord
    rw [dif_pos hk]
    rfl
  · -- the second kept axis: start zero, the offset is the result's third coordinate
    unfold GatherDims.start
    rw [dif_neg (show (2 : Fin 3) ∉ (slabDims N D1 D2 E wf).startIndexMap from
      fun h => absurd (congrArg Fin.val (List.mem_singleton.mp h)) (Nat.succ_ne_zero 1))]
    simp only [Nat.zero_add]
    have hk : (2 : Fin 3) ∈ (slabDims N D1 D2 E wf).sKept :=
      ((slabDims N D1 D2 E wf).mem_sKept 2).mpr
        ⟨fun h => absurd (congrArg Fin.val (List.mem_singleton.mp h)) (Nat.succ_ne_zero 1), List.not_mem_nil⟩
    unfold GatherDims.offCoord
    rw [dif_pos hk]
    rfl

end Cert.LibGatherSlabs

end
-- ==== Proof.LibAllOnes.lean ====
/-
  Two small general facts a reference that uses `jnp.take` meets.

  A host reduce by `and` of one-bit words: when the initial word is 1 and every entry of the operand is 1, every
  entry of the result is 1 (whatever the axes reduced and their extents).

  A vector `[n]` broadcast along new trailing axes — into a column `[n, 1]`, or into `[n, c, d]` — read at an index: the
  vector's entry at the index's first coordinate.

  Changes of shape that split or merge the leading axis, read at an index given by coordinates: a matrix `[a, b]`
  flattened to `[n]` reads entry `i·b + j` at `(i, j)`; an array `[n, c, d]` reshaped to `[a, b, c, d]` reads entry
  `(i, j, p, q)` at `(i·b + j, p, q)`.
-/
import Idealize.ShloMosaic.Lib.ValueIdx
import Idealize.ShloMosaic.Lib.Pipeline.Value
import Idealize.ShloMosaic.PureOps.Reduce

noncomputable section

namespace Cert.LibAllOnes

open Idealize.ShloMosaic Idealize.ShloMosaic.ValueIdx

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A host reduce by `and` from the initial word 1 of an operand whose entries are all 1 is 1 everywhere. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

variable {α : Type}

/-- A matrix `[a, b]` flattened to a vector `[n]`, read at entry `i·b + j`: the matrix at `(i, j)`. -/
theorem flatten_apply {a b n : Nat} (x : (⟨2, ![a, b]⟩ : Shape).Idx → α)
    (h : (⟨2, ![a, b]⟩ : Shape).ShapeCasts ⟨1, ![n]⟩) (i : Fin a) (j : Fin b) (k : Fin n)
    (hk : k.val = i.val * b + j.val) : shapeCast ⟨1, ![n]⟩ x h (ix1 k) = x (ix2 i j) := by
  refine shapeCast_apply x h (ix1 k) (ix2 i j) ?_
  rw [Shape.rowMajor_val_two, Shape.rowMajor_val_one]
  exact hk.symm

/-- An array `[n, c, d]` reshaped to `[a, b, c, d]`, read at `(i, j, p, q)`: the array at `(i·b + j, p, q)`. -/
theorem unflatten_apply {a b c d n : Nat} (x : (⟨3, ![n, c, d]⟩ : Shape).Idx → α)
    (h : (⟨3, ![n, c, d]⟩ : Shape).ShapeCasts ⟨4, ![a, b, c, d]⟩) (i : Fin a) (j : Fin b) (p : Fin c) (q : Fin d)
    (k : Fin n) (hk : k.val = i.val * b + j.val) :
    shapeCast ⟨4, ![a, b, c, d]⟩ x h (ix4 i j p q) = x (ix3 k p q) := by
  refine shapeCast_apply x h (ix4 i j p q) (ix3 k p q) ?_
  rw [Shape.rowMajor_val_three, Shape.rowMajor_val_four]
  show (k.val * c + p.val) * d + q.val = ((i.val * b + j.val) * c + p.val) * d + q.val
  rw [hk]

/-- A vector `[n]` broadcast into the column `[n, 1]` (its axis sent to axis 0), read at `(k, z)`: the vector at `k`. -/
theorem column_apply {n : Nat} (dims : Fin 1 → Fin 2) (hd : dims 0 = 0)
    (h : (⟨1, ![n]⟩ : Shape).BroadcastsInDim ⟨2, ![n, 1]⟩ dims) (x : (⟨1, ![n]⟩ : Shape).Idx → α) (k : Fin n) (z : Fin 1) :
    broadcastInDim ⟨2, ![n, 1]⟩ dims h x (ix2 k z) = x (ix1 k) := by
  refine broadcastInDim_apply dims h x (ix2 k z) (ix1 k) ?_
  intro a
  match a with
  | ⟨0, _⟩ =>
    show k.val = if n = 1 then 0 else ((ix2 k z) (dims 0)).val
    rw [hd]
    have hk : k.val < n := k.isLt
    split
    · omega
    · rfl

/-- A vector `[n]` broadcast into `[n, c, d]` (its axis sent to axis 0), read at `(k, p, r)`: the vector at `k`. -/
theorem lead_apply {n c d : Nat} (dims : Fin 1 → Fin 3) (hd : dims 0 = 0)
    (h : (⟨1, ![n]⟩ : Shape).BroadcastsInDim ⟨3, ![n, c, d]⟩ dims) (x : (⟨1, ![n]⟩ : Shape).Idx → α) (k : Fin n) (p : Fin c)
    (r : Fin d) : broadcastInDim ⟨3, ![n, c, d]⟩ dims h x (ix3 k p r) = x (ix1 k) := by
  refine broadcastInDim_apply dims h x (ix3 k p r) (ix1 k) ?_
  intro a
  match a with
  | ⟨0, _⟩ =>
    show k.val = if n = 1 then 0 else ((ix3 k p r) (dims 0)).val
    rw [hd]
    have hk : k.val < n := k.isLt
    split
    · omega
    · rfl

end Cert.LibAllOnes

end
-- ==== Proof.RefValue.lean ====
/-
  The reference's result is the sliding window over the base.

  Flat position `k = i·128 + j` of the index vector holds the 32-bit word `((i + j) + 1 + 128) - 128 = i + j + 1`, a
  number between 1 and 255. So it is not negative (nothing is added to it), it passes both range tests (the mask is 1
  at every position), and read signed and clamped into [0, 255] it names row `i + j + 1` of the base. The select
  therefore keeps the gathered slab everywhere, and entry (i, j, b, h) of the reshaped result is entry
  (i + j + 1, b, h) of the base: the window.
-/
import proofs.«116490_j85718957293865_1_alg».proof.Proof.RefRun
import proofs.«116490_j85718957293865_1_alg».proof.Proof.LibGatherSlabs
import proofs.«116490_j85718957293865_1_alg».proof.Proof.LibAllOnes
import proofs.«116490_j85718957293865_1_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.HostRun Idealize.ShloMosaic Idealize.ShloMosaic.ValueIdx

variable {F : FTy → Type} [FloatOps F]

/-- The index arithmetic on 32-bit words: adding 128 and taking it away again changes nothing, and the sums of the
    words of `i`, `j` and 1 is the word of `i + j + 1`. -/
theorem word_sum (i j : Nat) :
    IntOp.subi (IntOp.addi (IntOp.addi (IntOp.addi (BitVec.ofNat 32 i) (BitVec.ofNat 32 j)) 1#32) 128#32) 128#32
      = BitVec.ofNat 32 (i + j + 1) := by
  show BitVec.ofNat 32 i + BitVec.ofNat 32 j + BitVec.ofNat 32 1 + 128#32 - 128#32 = _
  rw [BitVec.add_sub_cancel, ← BitVec.ofNat_add, ← BitVec.ofNat_add]

/-- The word of a number below 256: not negative, at least 0, at most 255, and read signed and clamped into
    [0, 255] it is the number itself; decided over the 256 numbers. -/
theorem word_facts : ∀ n : Fin 256, IntOp.cmpi .slt (BitVec.ofNat 32 n.val) 0#32 = 0#1
    ∧ IntOp.cmpi .sge (BitVec.ofNat 32 n.val) 0#32 = 1#1
    ∧ IntOp.cmpi .sle (BitVec.ofNat 32 n.val) 255#32 = 1#1
    ∧ min (BitVec.ofNat 32 n.val).toInt.toNat (256 - 1) = n.val := by decide +kernel

/-- The row of the base that flat position `k = i·128 + j` names: `i + j + 1`. -/
def rowAt (k : Fin 16384) : Fin 256 := ⟨k.val / 128 + k.val % 128 + 1, by have := k.isLt; omega⟩

/-- Entry (i, j) of the index matrix is the word of `i + j + 1`. -/
theorem idxMat_apply (i j : Fin 128) : idxMat (ix2 i j) = BitVec.ofNat 32 (i.val + j.val + 1) := by
  rw [← word_sum]
  rfl

/-- Flat position `k` of the index vector is the word of the row it names. -/
theorem idxFlat_apply (k : Fin 16384) : idxFlat (ix1 k) = BitVec.ofNat 32 (rowAt k).val := by
  have hk : k.val < 16384 := k.isLt
  have hi : k.val / 128 < 128 := by omega
  have hj : k.val % 128 < 128 := Nat.mod_lt _ (by decide)
  unfold idxFlat
  exact (Cert.LibAllOnes.flatten_apply idxMat shapeCasts_S128x128_S16384 ⟨k.val / 128, hi⟩ ⟨k.val % 128, hj⟩ k
    (by show k.val = k.val / 128 * 128 + k.val % 128; omega)).trans (idxMat_apply _ _)

/-- The index is not negative, so the normalisation leaves it. -/
theorem idxNorm_apply (k : Fin 16384) : idxNorm idxFlat (ix1 k) = BitVec.ofNat 32 (rowAt k).val := by
  show Scalar.select (IntOp.cmpi .slt (idxFlat (ix1 k)) 0#32) (IntOp.addi (idxFlat (ix1 k)) 256#32) (idxFlat (ix1 k)) = _
  rw [idxFlat_apply, (word_facts (rowAt k)).1, select_zero]

/-- The column of indices at row `k`. -/
theorem idxCol_apply (k : Fin 16384) (z : Fin 1) : idxCol idxFlat (ix2 k z) = BitVec.ofNat 32 (rowAt k).val := by
  unfold idxCol
  rw [Cert.LibAllOnes.column_apply _ rfl bcast_S16384_S16384x1_0 (idxNorm idxFlat) k z]
  exact idxNorm_apply k

/-- Every index is in range: the mask is 1 everywhere. -/
theorem inRange_apply (k : Fin 16384) : inRange idxFlat (ix1 k) = 1#1 := by
  unfold inRange
  refine Cert.LibAllOnes.reduce_andi_of_all _ _ _ _ _ rfl ?_
  intro i
  obtain ⟨k', z, rfl⟩ : ∃ (k' : Fin 16384) (z : Fin 1), i = ix2 k' z := ⟨i 0, i 1, eq_ix2 i⟩
  show IntOp.andi (IntOp.cmpi .sge (idxCol idxFlat (ix2 k' z)) 0#32) (IntOp.cmpi .sle (idxCol idxFlat (ix2 k' z)) 255#32) = 1#1
  rw [idxCol_apply, (word_facts (rowAt k')).2.1, (word_facts (rowAt k')).2.2.1]
  rfl

/-- The clamped signed reading of the word of a row below 256 is that row. -/
theorem slabOf_row (n : Fin 256) : Cert.LibGatherSlabs.slabOf 256 (by decide) (BitVec.ofNat 32 n.val) = n :=
  Fin.ext (word_facts n).2.2.2

/-- The slab taken at flat position `k` is the slab of the base at the row `k` names. -/
theorem taken_apply (q : S256x16x1024.Idx → Elt F .f32) (k : Fin 16384) (p : Fin 16) (r : Fin 1024) :
    taken q idxFlat (ix3 k p r) = q (ix3 (rowAt k) p r) := by
  have hm : broadcastInDim S16384x16x1024 ![0] bcast_S16384_S16384x16x1024_0 (inRange idxFlat) (ix3 k p r) = 1#1 := by
    rw [Cert.LibAllOnes.lead_apply _ rfl bcast_S16384_S16384x16x1024_0 (inRange idxFlat) k p r]
    exact inRange_apply k
  have hg : gather_S256x16x1024_S16384x1_S16384x16x1024_12_0_n_n_0_1_1161024
      = Cert.LibGatherSlabs.slabDims 256 16 1024 16384 gather_S256x16x1024_S16384x1_S16384x16x1024_12_0_n_n_0_1_1161024_wf := rfl
  show Scalar.select (broadcastInDim S16384x16x1024 ![0] bcast_S16384_S16384x16x1024_0 (inRange idxFlat) (ix3 k p r))
      (Host.gather gather_S256x16x1024_S16384x1_S16384x16x1024_12_0_n_n_0_1_1161024 q (idxCol idxFlat) (ix3 k p r))
      (broadcastInDim S16384x16x1024 ![] bcast_S_S16384x16x1024 (constant (F := F) S_ .f32 0x7FC00000#32) (ix3 k p r)) = _
  rw [hm, select_one, hg, Cert.LibGatherSlabs.gather_slabs_apply (by decide : 0 < 256), idxCol_apply, slabOf_row]

/-- THE REFERENCE'S RESULT from a base is the sliding window over it. -/
theorem result_eq (q : S256x16x1024.Idx → Elt F .f32) : result q = Cert.Spec.window q := by
  funext i
  obtain ⟨a, b, p, r, rfl⟩ : ∃ (a b : Fin 128) (p : Fin 16) (r : Fin 1024), i = ix4 a b p r :=
    ⟨i 0, i 1, i 2, i 3, eq_ix4 i⟩
  have ha : a.val < 128 := a.isLt
  have hb : b.val < 128 := b.isLt
  have hk : a.val * 128 + b.val < 16384 := by omega
  unfold result
  rw [Cert.LibAllOnes.unflatten_apply (taken q idxFlat) shapeCasts_S16384x16x1024_S128x128x16x1024 a b p r
    ⟨a.val * 128 + b.val, hk⟩ rfl, taken_apply]
  refine (Cert.Spec.window_apply q a b p r _ ?_).symm
  show (a.val * 128 + b.val) / 128 + (a.val * 128 + b.val) % 128 + 1 = a.val + b.val + 1
  omega

end Cert.ReferenceIdeal.RefValue

end
-- ==== Proof.lean ====
/-
  The certificate's claims, assembled.

  The kernel's program and the reference build the same query base — the last layer of the neighbour memory followed
  by the inputs, 256 rows — with the same three host operations. The kernel's 128 grid points each copy 128
  consecutive rows of the base, from row `t + 1` on at point `t`, into block `t` of the result; the reference gathers
  rows `i + j + 1` of the base at the flat positions `i·128 + j` and reshapes. Both results are the sliding window over
  the base, entry (i, j, b, h) ↦ base (i + j + 1, b, h); no arithmetic touches the values, so the two agree on every
  input, finite or not. The frames of the two kernel programs are the generated ones; the reference's frame is its run
  with the result dropped; the idealization rewrote nothing.
-/
import proofs.«116490_j85718957293865_1_alg».proof.Defs
import proofs.«116490_j85718957293865_1_alg».proof.Proof.Gen.Kernel
import proofs.«116490_j85718957293865_1_alg».proof.Proof.Gen.Kernel.Skeleton
import proofs.«116490_j85718957293865_1_alg».proof.Proof.Gen.Kernel.Launch
import proofs.«116490_j85718957293865_1_alg».proof.Proof.Gen.Kernel.Points
import proofs.«116490_j85718957293865_1_alg».proof.Proof.Gen.Kernel.Frame
import proofs.«116490_j85718957293865_1_alg».proof.Proof.Gen.KernelIdeal
import proofs.«116490_j85718957293865_1_alg».proof.Proof.Gen.KernelIdeal.Skeleton
import proofs.«116490_j85718957293865_1_alg».proof.Proof.Gen.KernelIdeal.Launch
import proofs.«116490_j85718957293865_1_alg».proof.Proof.Gen.KernelIdeal.Points
import proofs.«116490_j85718957293865_1_alg».proof.Proof.Gen.KernelIdeal.Frame
import proofs.«116490_j85718957293865_1_alg».proof.Proof.Gen.KernelIdeal.Value
import proofs.«116490_j85718957293865_1_alg».proof.Proof.Gen.ReferenceIdeal
import proofs.«116490_j85718957293865_1_alg».proof.Proof.Gen.Pre_finite_inputs
import proofs.«116490_j85718957293865_1_alg».proof.Proof.KernelWindow
import proofs.«116490_j85718957293865_1_alg».proof.Proof.RefRun
import proofs.«116490_j85718957293865_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.HostRun.run (F := Ideal) m ρ)

/-- From memories that agree on the arguments both idealized programs end with the sliding window over the base
    built from those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Window.run (F := Ideal) m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2, Cert.ReferenceIdeal.RefValue.result_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
